-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x768 : Shape := ⟨3, ![256, 64, 768]⟩
abbrev S256x64x384 : Shape := ⟨3, ![256, 64, 384]⟩
abbrev S_ : Shape := ⟨0, ![]⟩
abbrev S256x64 : Shape := ⟨2, ![256, 64]⟩

class Facts : Prop where
  bcast_S_S256x64x768 : S_.BroadcastsInDim S256x64x768 (![] : Fin 0 → Fin S256x64x768.rank)
  reducesTo_S256x64x768_S_d0_1_2 : S256x64x768.ReducesTo [0, 1, 2] S_
  h_S_ : 0 < S_.numel
  bcast_S_S256x64x384 : S_.BroadcastsInDim S256x64x384 (![] : Fin 0 → Fin S256x64x384.rank)
  reducesTo_S256x64x384_S_d0_1_2 : S256x64x384.ReducesTo [0, 1, 2] S_
  reducesTo_S256x64x384_S256x64_d2 : S256x64x384.ReducesTo [2] S256x64
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v15 : FVec F S256x64 .f32) (main_cst_5 : FVec F S_ .f32) : IVec S_ 1 :=
  let main_v16 : FVec F S256x64 .f32 := broadcastInDim S256x64 ![] bcast_S_S256x64 main_cst_5
  let main_v17 : IVec S256x64 1 := cmpf .ogt main_v15 main_v16
  let main_c_6 : IVec S_ 1 := constantI S_ 1 1#1
  let main_v18 : IVec S_ 1 := (fun x v => Host.reduce IntOp.andi x v reducesTo_S256x64_S_d0_1 h_S_) main_v17 main_c_6
  let main_v19 : IVec S_ 1 := andi main_v13 main_v18
  main_v19

def fn {F : FTy → Type} [FloatOps F] (main_arg0 : FVec F S256x64x768 .f32) (main_arg1 : FVec F S256x64x768 .f32) (main_arg2 : FVec F S256x64x384 .f32) : IVec S_ 1 :=
  let main_v0 : FVec F S256x64x768 .f32 := Host.absf main_arg0
  let main_cst : FVec F S_ .f32 := constant S_ .f32 0x7F800000#32
  let main_v1 : FVec F S256x64x768 .f32 := broadcastInDim S256x64x768 ![] bcast_S_S256x64x768 main_cst
  let main_v2 : IVec S256x64x768 1 := cmpf .olt main_v0 main_v1
  let main_c : IVec S_ 1 := constantI S_ 1 1#1
  let main_v3 : IVec S_ 1 := (fun x v => Host.reduce IntOp.andi x v reducesTo_S256x64x768_S_d0_1_2 h_S_) main_v2 main_c
  let main_v4 : FVec F S256x64x768 .f32 := Host.absf main_arg1
  let main_cst_0 : FVec F S_ .f32 := constant S_ .f32 0x7F800000#32
  let main_v5 : FVec F S256x64x768 .f32 := broadcastInDim S256x64x768 ![] bcast_S_S256x64x768 main_cst_0
  let main_v6 : IVec S256x64x768 1 := cmpf .olt main_v4 main_v5
  let main_c_1 : IVec S_ 1 := constantI S_ 1 1#1
  let main_v7 : IVec S_ 1 := (fun x v => Host.reduce IntOp.andi x v reducesTo_S256x64x768_S_d0_1_2 h_S_) main_v6 main_c_1
  let main_v8 : IVec S_ 1 := andi main_v3 main_v7
  let main_v9 : FVec F S256x64x384 .f32 := Host.absf main_arg2
  let main_cst_2 : FVec F S_ .f32 := constant S_ .f32 0x7F800000#32
  let main_v10 : FVec F S256x64x384 .f32 := broadcastInDim S256x64x384 ![] bcast_S_S256x64x384 main_cst_2
  let main_v11 : IVec S256x64x384 1 := cmpf .olt main_v9 main_v10
  let main_c_3 : IVec S_ 1 := constantI S_ 1 1#1
  let main_v12 : IVec S_ 1 := (fun x v => Host.reduce IntOp.andi x v reducesTo_S256x64x384_S_d0_1_2 h_S_) main_v11 main_c_3
  let main_v13 : IVec S_ 1 := andi main_v8 main_v12
  let main_v14 : FVec F S256x64x384 .f32 := mulf main_arg2 main_arg2
  let main_cst_4 : FVec F S_ .f32 := constant S_ .f32 0x00000000#32
  let main_v15 : FVec F S256x64 .f32 := (fun x v => Host.reduceAdd x v reducesTo_S256x64x384_S256x64_d2 h_S_) main_v14 main_cst_4
  let main_cst_5 : FVec F S_ .f32 := constant S_ .f32 0x00000000#32
  fn_part1 (F := F) main_v13 main_v15 main_cst_5
-- ==== Kernel.lean ====
abbrev S256x64x768 : Shape := ⟨3, ![256, 64, 768]⟩
abbrev S256x64x384 : Shape := ⟨3, ![256, 64, 384]⟩
abbrev S8x8x128 : Shape := ⟨3, ![8, 8, 128]⟩
abbrev S32x64x768 : Shape := ⟨3, ![32, 64, 768]⟩
abbrev S32x64x384 : Shape := ⟨3, ![32, 64, 384]⟩
abbrev S1x8x128 : Shape := ⟨3, ![1, 8, 128]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1 : Shape := ⟨2, ![1, 1]⟩
abbrev S32x64x1 : Shape := ⟨3, ![32, 64, 1]⟩
abbrev S32x384 : Shape := ⟨2, ![32, 384]⟩
abbrev S8x128 : Shape := ⟨2, ![8, 128]⟩
abbrev S8x1x1 : Shape := ⟨3, ![8, 1, 1]⟩
abbrev S8 : Shape := ⟨1, ![8]⟩
abbrev S_ : Shape := ⟨0, ![]⟩

abbrev nBuf : Space → Nat
  | .hbm => 21
  | .vmem => 8
  | .smem => 0
  | _ => 0

abbrev bufTy : (tb : Table) → Fin (tcTables nBuf tb) → BufTy
  | .hbm, ⟨0, _⟩ => ⟨S256x64x768, .f32⟩
  | .hbm, ⟨1, _⟩ => ⟨S256x64x768, .f32⟩
  | .hbm, ⟨2, _⟩ => ⟨S256x64x384, .f32⟩
  | .hbm, ⟨3, _⟩ => ⟨S8x8x128, .f32⟩
  | .hbm, ⟨4, _⟩ => ⟨S8x1x1, .f32⟩
  | .hbm, ⟨5, _⟩ => ⟨S8, .f32⟩
  | .hbm, ⟨6, _⟩ => ⟨S_, .f32⟩
  | .hbm, ⟨7, _⟩ => ⟨S_, .f32⟩
  | .hbm, ⟨8, _⟩ => ⟨S8x1x1, .f32⟩
  | .hbm, ⟨9, _⟩ => ⟨S8, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S32x64x768, .f32⟩
  | .local _ .vmem, ⟨1, _⟩ => ⟨S32x64x768, .f32⟩
  | .local _ .vmem, ⟨2, _⟩ => ⟨S32x64x768, .f32⟩
  | .local _ .vmem, ⟨3, _⟩ => ⟨S32x64x768, .f32⟩
  | .local _ .vmem, ⟨4, _⟩ => ⟨S32x64x384, .f32⟩
  | .local _ .vmem, ⟨5, _⟩ => ⟨S32x64x384, .f32⟩
  | .local _ .vmem, ⟨6, _⟩ => ⟨S1x8x128, .f32⟩
  | .local _ .vmem, ⟨7, _⟩ => ⟨S1x8x128, .f32⟩
  | _, _ => ⟨S256x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S32x64x768_S32x64x768_0_0_0 : ∀ a, (![0, 0, 0] : Fin 3 → Nat) a + S32x64x768.size a ≤ S32x64x768.size a
  h_S32x64x768 : 0 < S32x64x768.numel
  reduces_S32x64x768_S32x64 : S32x64x768.Reduces [2] S32x64
  reduces_S32x64_S32 : S32x64.Reduces [1] S32
  shapeCasts_S32_S1x32 : S32.ShapeCasts S1x32
  reduces_S1x32_S1 : S1x32.Reduces [1] S1
  shapeCasts_S1_S1x1 : S1.ShapeCasts S1x1
  inpos_S1x1_p0_0 : ∀ a, (![0, 0] : Fin 2 → Nat) a < S1x1.size a
  inb_S32x64x384_S32x64x384_0_0_0 : ∀ a, (![0, 0, 0] : Fin 3 → Nat) a + S32x64x384.size a ≤ S32x64x384.size a
  h_S32x64x384 : 0 < S32x64x384.numel
  reduces_S32x64x384_S32x64 : S32x64x384.Reduces [2] S32x64
  shapeCasts_S32x64_S32x64x1 : S32x64.ShapeCasts S32x64x1
  broadcasts_S32x64x1_S32x64x384 : S32x64x1.Broadcasts S32x64x384
  reduces_S32x64x384_S32x384 : S32x64x384.Reduces [1] S32x384
  reduces_S32x384_S32 : S32x384.Reduces [1] S32
  iota_S8x128_d0_w32 : S8x128.Iotas .tc 32 [0]
  iota_S8x128_d1_w32 : S8x128.Iotas .tc 32 [1]
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  slices_S8x8x128_S8x1x1_0_1_0 : S8x8x128.Slices ![0, 1, 0] S8x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x768.size a ≤ S256x64x768.size a
  hwx0_0 : ∀ i : grid0.Coords, EltTy.bits .f32 = 32 ∨ (Rect.block (s := S256x64x768) S32x64x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x768.size a ≤ S256x64x768.size a
  hwx0_1 : ∀ i : grid0.Coords, EltTy.bits .f32 = 32 ∨ (Rect.block (s := S256x64x768) S32x64x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x64x384.size a ≤ S256x64x384.size a
  hwx0_2 : ∀ i : grid0.Coords, EltTy.bits .f32 = 32 ∨ (Rect.block (s := S256x64x384) S32x64x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)

variable [Facts₀]

abbrev win0_0 : Pipeline.Window sig grid0 :=
  Pipeline.Window.ofSpec (Memref.whole main_arg0) S32x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x64x768 : Shape := ⟨3, ![256, 64, 768]⟩
abbrev S256x64x384 : Shape := ⟨3, ![256, 64, 384]⟩
abbrev S_ : Shape := ⟨0, ![]⟩
abbrev S256x64 : Shape := ⟨2, ![256, 64]⟩
abbrev S256x64x1 : Shape := ⟨3, ![256, 64, 1]⟩
abbrev S256x384 : Shape := ⟨2, ![256, 384]⟩

abbrev nBuf : Space → Nat
  | .hbm => 31
  | .vmem => 0
  | .smem => 0
  | _ => 0

abbrev bufTy : (tb : Table) → Fin (tcTables nBuf tb) → BufTy
  | .hbm, ⟨0, _⟩ => ⟨S256x64x768, .f32⟩
  | .hbm, ⟨1, _⟩ => ⟨S256x64x768, .f32⟩
  | .hbm, ⟨2, _⟩ => ⟨S256x64x384, .f32⟩
  | .hbm, ⟨3, _⟩ => ⟨S256x64x768, .f32⟩
  | .hbm, ⟨4, _⟩ => ⟨S256x64x768, .f32⟩
  | .hbm, ⟨5, _⟩ => ⟨S_, .f32⟩
  | .hbm, ⟨6, _⟩ => ⟨S256x64, .f32⟩
  | .hbm, ⟨7, _⟩ => ⟨S256x64, .f32⟩
  | .hbm, ⟨8, _⟩ => ⟨S_, .f32⟩
  | .hbm, ⟨9, _⟩ => ⟨S_, .f32⟩
  | .hbm, ⟨10, _⟩ => ⟨S256x64x384, .f32⟩
  | .hbm, ⟨11, _⟩ => ⟨S_, .f32⟩
  | .hbm, ⟨12, _⟩ => ⟨S256x64, .f32⟩
  | .hbm, ⟨13, _⟩ => ⟨S256x64x1, .f32⟩
  | .hbm, ⟨14, _⟩ => ⟨S256x64x1, .f32⟩
  | .hbm, ⟨15, _⟩ => ⟨S256x64x384, .f32⟩
  | .hbm, ⟨16, _⟩ => ⟨S256x64x384, .f32⟩
  | .hbm, ⟨17, _⟩ => ⟨S_, .f32⟩
  | .hbm, ⟨18, _⟩ => ⟨S256x384, .f32⟩
  | .hbm, ⟨19, _⟩ => ⟨S256x384, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S256x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  reducesTo_S256x64x768_S256x64_d2 : S256x64x768.ReducesTo [2] S256x64
  h_S_ : 0 < S_.numel
  reducesTo_S256x64_S_d0_1 : S256x64.ReducesTo [0, 1] S_
  reducesTo_S256x64x384_S256x64_d2 : S256x64x384.ReducesTo [2] S256x64
  bcast_S256x64_S256x64x1_0_1 : S256x64.BroadcastsInDim S256x64x1 (![0, 1] : Fin 2 → Fin S256x64x1.rank)
  bcast_S256x64x1_S256x64x384_0_1_2 : S256x64x1.BroadcastsInDim S256x64x384 (![0, 1, 2] : Fin 3 → Fin S256x64x384.rank)
  reducesTo_S256x64x384_S256x384_d1 : S256x64x384.ReducesTo [1] S256x384
  reducesTo_S256x384_S_d0_1 : S256x384.ReducesTo [0, 1] S_

variable [Facts₀]

class Facts : Prop extends Facts₀ where

variable [Facts]
-- ==== Proof.UnitRow.lean ====
/-
  Normalising a row to unit length, on the extended reals.

  One program scales a row `x` by the reciprocal square root of its sum of squares `s`; the other divides it by the
  square root of `s`. For `0 < s` these are one function of ANY extended real `x`:
  * `s` a positive real: `rsqrt s = (√s)⁻¹` and `√s ≠ 0`, so both are `x · (√s)⁻¹`;
  * `s = ⊤`: `rsqrt ⊤ = 0` and `x / √⊤ = x · ⊤⁻¹ = x · 0`, so both are `0`.
  At `s = 0` they differ (`0 · rsqrt 0 = 0 · ⊤ = 0` against `0 / 0 = ⊥`), which is why the rows are required to be nonzero.
-/
import Idealize.ShloMosaic.PureOps.Ideal

namespace Cert.UnitRow

open Idealize.ShloMosaic

/-- For a positive extended real `s`, multiplying by `rsqrt s` is dividing by `sqrt s`, whatever `x` is. -/
theorem mul_rsqrt_eq_div_sqrt (x s : EReal) (hs : 0 < s) :
    x * Ideal.rsqrt s = Ideal.div x (Ideal.sqrt s) := by
  induction s using EReal.rec with
  | bot => exact absurd hs (not_lt.mpr bot_le)
  | top =>
    rw [Ideal.rsqrt_top, Ideal.sqrt_top, Ideal.div, if_neg EReal.top_ne_zero, EReal.inv_top]
  | coe r =>
    have hr : 0 < r := by exact_mod_cast hs
    have hq : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hq, one_div]

end Cert.UnitRow
-- ==== Proof.LossSums.lean ====
/-
  The two sums the loss is made of, as functions of the argument arrays, and their split into eight tiles of 32 batch rows.

  * `autoSum o d`  = Σ_b Σ_n √( Σ_k (o[b,n,k] − d[b,n,k])² ): the sum over all 256·64 rows of the distance between the two embeddings.
  * `viSum x`      = Σ_b Σ_e ( Σ_n x[b,n,e] / √(Σ_e' x[b,n,e']²) )²: per batch, the squared length of the sum of the unit-normalised rows.

  A tile is 32 consecutive batch rows; `autoTile` and `viTile` are the same sums over one tile, the second with each row
  SCALED BY THE RECIPROCAL SQUARE ROOT of its sum of squares instead of divided by the square root. Batch row `b = 32 t + j`
  is row `j` of tile `t`, so a sum over the 256 batch rows is the sum over the 8 tiles of the sums over their 32 rows:
  only commutativity and associativity of `+`, which hold on all extended reals. The two normalisations agree row by row
  where the row's sum of squares is positive (`UnitRow.mul_rsqrt_eq_div_sqrt`).
-/
import Idealize.ShloMosaic.PureOps.Ideal
import Idealize.ShloMosaic.Lib.ValueIdx
import proofs.«159195_j23476291240772_2_alg».proof.Proof.UnitRow

noncomputable section

namespace Cert.LossSums

open Idealize.ShloMosaic Idealize.ShloMosaic.ValueIdx

/-- A 256 × 64 × 768 array of extended reals, and one tile of it. -/
abbrev Emb := (⟨3, ![256, 64, 768]⟩ : Shape).Idx → EReal
abbrev EmbTile := (⟨3, ![32, 64, 768]⟩ : Shape).Idx → EReal
/-- A 256 × 64 × 384 array of extended reals, and one tile of it. -/
abbrev Enc := (⟨3, ![256, 64, 384]⟩ : Shape).Idx → EReal
abbrev EncTile := (⟨3, ![32, 64, 384]⟩ : Shape).Idx → EReal

/-- Batch row `j` of tile `t`. -/
abbrev tileRow (t : Fin 8) (j : Fin 32) : Fin 256 := ⟨32 * t.val + j.val, by have := t.isLt; have := j.isLt; omega⟩

/-- Tile `t` of an array: its batch rows `32 t … 32 t + 31`. -/
def embTile (t : Fin 8) (o : Emb) : EmbTile := fun y => o (ix3 (tileRow t (y 0)) (y 1) (y 2))
def encTile (t : Fin 8) (x : Enc) : EncTile := fun y => x (ix3 (tileRow t (y 0)) (y 1) (y 2))

/-- The sum over all rows of the distance between the two arrays' rows. -/
def autoSum (o d : Emb) : EReal :=
  ∑ b : Fin 256, ∑ n : Fin 64, Ideal.sqrt (∑ k : Fin 768, (o (ix3 b n k) - d (ix3 b n k)) * (o (ix3 b n k) - d (ix3 b n k)))

/-- The same over the rows of one tile. -/
def autoTile (o d : EmbTile) : EReal :=
  ∑ j : Fin 32, ∑ n : Fin 64, Ideal.sqrt (∑ k : Fin 768, (o (ix3 j n k) - d (ix3 j n k)) * (o (ix3 j n k) - d (ix3 j n k)))

/-- A row's sum of squares. -/
def sqNorm (x : Enc) (b : Fin 256) (n : Fin 64) : EReal := ∑ e : Fin 384, x (ix3 b n e) * x (ix3 b n e)

/-- Per batch, the squared length of the sum of its rows, each DIVIDED by its length; summed over the batches. -/
def viSum (x : Enc) : EReal :=
  ∑ b : Fin 256, ∑ e : Fin 384,
    (∑ n : Fin 64, Ideal.div (x (ix3 b n e)) (Ideal.sqrt (sqNorm x b n)))
      * (∑ n : Fin 64, Ideal.div (x (ix3 b n e)) (Ideal.sqrt (sqNorm x b n)))

/-- The same over one tile, each row SCALED by the reciprocal square root of its sum of squares. -/
def viTile (x : EncTile) : EReal :=
  ∑ j : Fin 32, ∑ e : Fin 384,
    (∑ n : Fin 64, x (ix3 j n e) * Ideal.rsqrt (∑ e' : Fin 384, x (ix3 j n e') * x (ix3 j n e')))
      * (∑ n : Fin 64, x (ix3 j n e) * Ideal.rsqrt (∑ e' : Fin 384, x (ix3 j n e') * x (ix3 j n e')))

/-- A sum over the 256 batch rows is the sum over the 8 tiles of the sums over their 32 rows. -/
theorem sum_tiles {M : Type*} [AddCommMonoid M] (g : Fin 256 → M) :
    ∑ b : Fin 256, g b = ∑ t : Fin 8, ∑ j : Fin 32, g (tileRow t j) := by
  rw [← Fintype.sum_prod_type']
  refine (Fintype.sum_equiv (finProdFinEquiv (m := 8) (n := 32)) (fun p => g (tileRow p.1 p.2)) g (fun p => ?_)).symm
  refine congrArg g (Fin.ext ?_)
  show 32 * p.1.val + p.2.val = p.2.val + 32 * p.1.val
  omega

/-- The distances' sum is the sum of the eight tiles' partial sums. -/
theorem autoSum_tiles (o d : Emb) : autoSum o d = ∑ t : Fin 8, autoTile (embTile t o) (embTile t d) := by
  unfold autoSum
  rw [sum_tiles]
  rfl

/-- Where every row has a positive sum of squares, the sum of the eight tiles' partial sums — rows scaled by `rsqrt` — is
    `viSum` — rows divided by `sqrt`. -/
theorem viSum_tiles (x : Enc) (hpos : ∀ b n, 0 < sqNorm x b n) : viSum x = ∑ t : Fin 8, viTile (encTile t x) := by
  unfold viSum
  rw [sum_tiles]
  refine Finset.sum_congr rfl fun t _ => Finset.sum_congr rfl fun j _ => Finset.sum_congr rfl fun e _ => ?_
  have h : ∀ n : Fin 64, Ideal.div (x (ix3 (tileRow t j) n e)) (Ideal.sqrt (sqNorm x (tileRow t j) n))
      = encTile t x (ix3 j n e) * Ideal.rsqrt (∑ e' : Fin 384, encTile t x (ix3 j n e') * encTile t x (ix3 j n e')) := fun n =>
    (UnitRow.mul_rsqrt_eq_div_sqrt _ _ (hpos (tileRow t j) n)).symm
  simp only [h]

end Cert.LossSums

end
-- ==== Proof.Domain.lean ====
/-
  What the precondition's added conjunct says: every row of the encoded array has a positive sum of squares.

  The precondition is the conjunction, over one-bit words, of three finiteness tests and `all(Σ_e x[b,n,e]² > 0)`. A
  conjunction of words is 1 only when each is; a reduction by `and` that is 1 has every operand bit 1; the bit of a float
  comparison `s > 0` is 1 exactly when `0 < s` in the order of the extended reals; and the host's sum over the last axis,
  started from the literal zero, is the plain sum over that axis's coordinate.
-/
import proofs.«159195_j23476291240772_2_alg».proof.Pre_finite_inputs
import proofs.«159195_j23476291240772_2_alg».proof.Proof.LossSums
import Idealize.ShloMosaic.Lib.ReduceAll
import Idealize.ShloMosaic.Lib.Affine
import Idealize.ShloMosaic.Lib.WordArith
import Idealize.ShloMosaic.Lib.ValueIdx
import Idealize.ShloMosaic.Lib.IdealHost
import Idealize.ShloMosaic.PureOps.Ideal.Laws

noncomputable section
namespace Cert.Pre_finite_inputs.Domain
open Idealize.ShloMosaic Idealize.ShloMosaic.ValueIdx Cert.Pre_finite_inputs Cert.LossSums

/-- The rank-zero shape has one index. -/
instance : Subsingleton S_.Idx := ⟨fun a b => funext fun d => d.elim0⟩

/-- Under the precondition every row of the third argument has a positive sum of squares. -/
theorem rows_nonzero [Facts] (a0 a1 : FVec Ideal S256x64x768 .f32) (x : FVec Ideal S256x64x384 .f32)
    (h : fn (F := Ideal) a0 a1 x = fun _ => 1#1) (b : Fin 256) (n : Fin 64) : 0 < sqNorm x b n := by
  have h0 := congrFun h ix0
  dsimp only [fn, fn_part1] at h0
  obtain ⟨-, h18⟩ := IntOp.andi_eq_one.1 h0
  have hc := Host.reduce_andi_all _ _ _ _ _ h18 (ix2 b n)
  rw [cmpf_apply, Ideal.cmpf_def, broadcastInDim_scalar_apply, constant_apply, Ideal.ofBits_zero_f32] at hc
  simp only [Host.reduceAdd, Ideal.hostReduceAdd_def] at hc
  rw [Ideal.hostReduceAdd_single Facts.reducesTo_S256x64x384_S256x64_d2 (by decide), constant_apply,
    Ideal.ofBits_zero_f32, zero_add] at hc
  have hlt := of_decide_eq_true ((WordArith.ofBool_eq_one_iff _).1 hc)
  unfold sqNorm
  refine lt_of_lt_of_eq hlt (Finset.sum_congr rfl fun e _ => ?_)
  have e1 : Shape.Reduces.lift (by decide : S256x64x384.Reduces [2] S256x64) (ix2 b n) e = ix3 b n (e : Fin 384) := by
    funext a; apply Fin.ext
    match a with
    | ⟨0, _⟩ => rfl
    | ⟨1, _⟩ => rfl
    | ⟨2, _⟩ => rfl
  exact congrArg (fun i => x i * x i) e1

end Cert.Pre_finite_inputs.Domain
end
-- ==== Proof.RefSums.lean ====
/-
  The reference's two sums, read one operation at a time, are the sums of `LossSums`.

  The reference adds the distances over all 256 · 64 rows at once, and the squared unit-row sums over all 256 · 384 (batch,
  entry) pairs at once; a sum over a rank-two index set is the double sum over its coordinates. Each host sum starts from the
  literal zero, which adds nothing. The norm the reference divides by is the square root of the row's sum of squares, kept as a
  256 × 64 × 1 column and broadcast back along the row: at entry (b, n, e) it is the norm of row (b, n).
-/
import proofs.«159195_j23476291240772_2_alg».proof.Proof.Gen.ReferenceIdeal.Read
import proofs.«159195_j23476291240772_2_alg».proof.Proof.LossSums
import Idealize.ShloMosaic.Lib.ValueIdx
import Idealize.ShloMosaic.PureOps.Ideal.Laws

noncomputable section
namespace Cert.ReferenceIdeal.RefSums
open Idealize.ShloMosaic Idealize.ShloMosaic.ValueIdx Cert.ReferenceIdeal Cert.ReferenceIdeal.Gen Cert.ReferenceIdeal.Read Cert.LossSums

/-- The reference's sum of distances is `autoSum` of the two embedding arrays. -/
theorem autoSum_ref (o d : (⟨S256x64x768, .f32⟩ : BufTy).Contents (Elt Ideal)) (i : S_.Idx) :
    val_main_v4 (F := Ideal) o d i = autoSum o d := by
  rw [val_main_v4_apply, val_main_cst_0_apply, Ideal.ofBits_def, Ideal.ofBits_zero_f32, zero_add, sum_idx2]
  unfold autoSum
  refine Finset.sum_congr rfl fun b _ => Finset.sum_congr rfl fun n _ => ?_
  rw [val_main_v3_apply, Ideal.hostUnary_sqrt_def, val_main_v2_apply, val_main_cst_apply, Ideal.ofBits_def,
    Ideal.ofBits_zero_f32, zero_add]
  refine congrArg Ideal.sqrt (Finset.sum_congr rfl fun k _ => ?_)
  have e : idx_main_v2 (ix2 b n) k = ix3 b n k :=
    funext fun a => Fin.ext (by match a with | ⟨0, _⟩ => rfl | ⟨1, _⟩ => rfl | ⟨2, _⟩ => rfl)
  rw [val_main_v1_apply, val_main_v0_apply, Ideal.mulf_def, Ideal.subf_def, e]

/-- The reference's sum over a batch's 64 rows of entry `e` of each row divided by its norm. -/
theorem unitRowSum_ref (x : (⟨S256x64x384, .f32⟩ : BufTy).Contents (Elt Ideal)) (b : Fin 256) (e : Fin 384) :
    val_main_v8 (F := Ideal) x (ix2 b e) = ∑ n : Fin 64, Ideal.div (x (ix3 b n e)) (Ideal.sqrt (sqNorm x b n)) := by
  rw [val_main_v8_apply, val_main_cst_1_apply, Ideal.ofBits_def, Ideal.ofBits_zero_f32, zero_add]
  refine Finset.sum_congr rfl fun n _ => ?_
  have e1 : idx_main_v8 (ix2 b e) n = ix3 b n e :=
    funext fun a => Fin.ext (by match a with | ⟨0, _⟩ => rfl | ⟨1, _⟩ => rfl | ⟨2, _⟩ => rfl)
  have e2 : idx_main_call0_v2 (idx_main_v6 (ix3 b n e)) = ix2 b n :=
    funext fun a => Fin.ext (by match a with | ⟨0, _⟩ => rfl | ⟨1, _⟩ => rfl)
  rw [e1, val_main_v7_apply, Ideal.hostDivf_def, val_main_v6_apply, val_main_v5_apply, Ideal.hostUnary_sqrt_def,
    val_main_call0_v2_apply, e2, val_main_call0_v1_apply, val_main_call0_cst_apply, Ideal.ofBits_def,
    Ideal.ofBits_zero_f32, zero_add]
  unfold sqNorm
  refine congrArg (fun s => Ideal.div (x (ix3 b n e)) (Ideal.sqrt s)) (Finset.sum_congr rfl fun e' _ => ?_)
  have e3 : idx_main_call0_v1 (ix2 b n) e' = ix3 b n e' :=
    funext fun a => Fin.ext (by match a with | ⟨0, _⟩ => rfl | ⟨1, _⟩ => rfl | ⟨2, _⟩ => rfl)
  rw [val_main_call0_v0_apply, Ideal.mulf_def, e3]

/-- The reference's sum of squared unit-row sums is `viSum` of the encoded array. -/
theorem viSum_ref (x : (⟨S256x64x384, .f32⟩ : BufTy).Contents (Elt Ideal)) (i : S_.Idx) :
    val_main_v10 (F := Ideal) x i = viSum x := by
  rw [val_main_v10_apply, val_main_cst_2_apply, Ideal.ofBits_def, Ideal.ofBits_zero_f32, zero_add, sum_idx2]
  unfold viSum
  refine Finset.sum_congr rfl fun b _ => Finset.sum_congr rfl fun e _ => ?_
  rw [val_main_v9_apply, Ideal.mulf_def, unitRowSum_ref]

end Cert.ReferenceIdeal.RefSums
end
-- ==== Proof.LossTail.lean ====
/-
  The scalar arithmetic both programs end with, as functions of the two sums.

  From the sum of distances `A` and the sum of squared unit-row sums `S` (each a rank-zero array):
    the first normalised loss is  A / 16384;
    the second is                 (0.5 · (S − 16384)) / 532480;
    the loss is their difference.
  The four literals are the same words in both programs, so they are never evaluated: the two programs' results are equal as
  soon as their `A` and their `S` are.
-/
import Idealize.ShloMosaic.PureOps.Ideal

noncomputable section
namespace Cert.LossTail

open Idealize.ShloMosaic

/-- The rank-zero shape. -/
abbrev Sc : Shape := ⟨0, ![]⟩

/-- `A / 16384`. -/
def autoNorm (A : FVec Ideal Sc .f32) : FVec Ideal Sc .f32 :=
  Host.divf (F := Ideal) A (constant (F := Ideal) Sc .f32 0x46800000#32)

/-- `(0.5 · (S − 16384)) / 532480`. -/
def viNorm (S : FVec Ideal Sc .f32) : FVec Ideal Sc .f32 :=
  Host.divf (F := Ideal) (mulf (F := Ideal) (constant (F := Ideal) Sc .f32 0x3F000000#32) (subf (F := Ideal) S (constant (F := Ideal) Sc .f32 0x46800000#32)))
    (constant (F := Ideal) Sc .f32 0x49020000#32)

/-- The difference of the two. -/
def loss (A S : FVec Ideal Sc .f32) : FVec Ideal Sc .f32 := subf (F := Ideal) (autoNorm A) (viNorm S)

end Cert.LossTail
end
-- ==== Proof.RefLoss.lean ====
/-
  The reference's three results, as the shared tail of the two sums of `LossSums`.

  The reference's last eight operations are the shared scalar arithmetic applied to its sum of distances and its sum of
  squared unit-row sums, which are `autoSum` and `viSum` of its arguments (`RefSums`).
-/
import proofs.«159195_j23476291240772_2_alg».proof.Proof.RefSums
import proofs.«159195_j23476291240772_2_alg».proof.Proof.LossTail

noncomputable section
namespace Cert.ReferenceIdeal.RefLoss
open Idealize.ShloMosaic Cert.ReferenceIdeal Cert.ReferenceIdeal.Gen Cert.ReferenceIdeal.Read Cert.ReferenceIdeal.RefSums Cert.LossSums Cert.LossTail

theorem autoNorm_ref (o d : (⟨S256x64x768, .f32⟩ : BufTy).Contents (Elt Ideal)) :
    val_main_v13 (F := Ideal) o d = autoNorm (fun _ => autoSum o d) :=
  show autoNorm (val_main_v4 (F := Ideal) o d) = _ from congrArg autoNorm (funext fun i => autoSum_ref o d i)

theorem viNorm_ref (x : (⟨S256x64x384, .f32⟩ : BufTy).Contents (Elt Ideal)) :
    val_main_v14 (F := Ideal) x = viNorm (fun _ => viSum x) :=
  show viNorm (val_main_v10 (F := Ideal) x) = _ from congrArg viNorm (funext fun i => viSum_ref x i)

theorem loss_ref (o d : (⟨S256x64x768, .f32⟩ : BufTy).Contents (Elt Ideal)) (x : (⟨S256x64x384, .f32⟩ : BufTy).Contents (Elt Ideal)) :
    val_main_v15 (F := Ideal) o d x = loss (fun _ => autoSum o d) (fun _ => viSum x) := by
  show subf (F := Ideal) (val_main_v13 (F := Ideal) o d) (val_main_v14 (F := Ideal) x) = _
  rw [autoNorm_ref, viNorm_ref]
  rfl

end Cert.ReferenceIdeal.RefLoss
end
-- ==== Proof.OutArray.lean ====
/-
  The output array after the run, as one function of the argument arrays.

  The grid has eight points; point `t` loads tile `t` (batch rows 32 t … 32 t + 31) of each of the three arrays and writes one
  1 × 8 × 128 block, which lands at rows `t` of the 8 × 8 × 128 output's leading axis: every window's block index at point `t`
  is (t, 0, 0). So the eight blocks tile the output, an index (q, r, c) lies in point `q`'s block and in no other, and the array
  the region leaves is, at (q, r, c), entry (0, r, c) of the block the body computes from the tiles of point `q`.
-/
import proofs.«159195_j23476291240772_2_alg».proof.Proof.Gen.KernelIdeal.Frame
import Idealize.ShloMosaic.Lib.Pipeline.Value
import Idealize.ShloMosaic.Lib.ValueIdx

set_option maxRecDepth 16384

noncomputable section
namespace Cert.KernelIdeal.OutArray
open Idealize.ShloMosaic Idealize.ShloMosaic.TcCoe Idealize.ShloMosaic.ValueIdx Idealize.SL.Sem Cert.KernelIdeal Cert.KernelIdeal.Gen
open Idealize.ShloMosaic.Pipeline (Dat Cfg Window)

variable {F : FTy → Type} [FloatOps F]
variable (m : (ℓ : Loc nD τ sig) → Buf (Elt F) ℓ)

/-- The printed index maps, decided over the grid: every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The grid point that handles tile `q`. -/
def pt (q : Fin 8) : Fin cfg0.N := ⟨q.val, by have := q.isLt; have := N_0; show q.val < grid0.N; omega⟩

/-- The 1 × 8 × 128 block the body leaves at point `t`, from the three tiles it loads there. -/
def blockAt (c : Dev nD) (t : Fin cfg0.N) : Vec F S1x8x128 .f32 :=
  out0_3 (iblk m c 0 t) (iblk m c 1 t) (iblk m c 2 t)

/-- The output array after the run: row `q` of its leading axis is the block the body leaves at point `q`. -/
def outArr (c : Dev nD) : S8x8x128.Idx → Elt F .f32 := fun i =>
  blockAt m c (pt (i 0)) (ix3 (0 : Fin 1) (i 1) (i 2))

/-- What point `t` writes back is block `t` of `outArr`. -/
theorem flushed_eq (c : Dev nD) (t : Fin cfg0.N) :
    (dats m 0 c).flushed 3 t = ((cfg0.win 3).blk t).view.read (Elt F) (outArr m c) := by
  show (cfg0.win 3).cut (grid0.coords t) ((dats m 0 c).after 3 t) = _
  rw [after0_3]
  have hB : out0_3 (iblk m c 0 t) (iblk m c 1 t) (iblk m c 2 t) = blockAt m c t := rfl
  rw [hB]
  have key : ∀ j : S1x8x128.Idx, blockAt m c t j = outArr m c (((cfg0.win 3).blk t).view.emb j) := by
    intro j
    obtain ⟨-, -, -, -, -, -, -, -, -, e0, e1, e2⟩ := idx_facts t
    have hj0 : (j 0).val < 1 := (j 0).isLt
    have h0 : pt ((((cfg0.win 3).blk t).view.emb j) 0) = t := by
      apply Fin.ext
      show win0_3.index t (0 : Fin 3) * 1 + 1 * (j 0).val = t.val
      omega
    have h1 : ix3 (0 : Fin 1) ((((cfg0.win 3).blk t).view.emb j) 1) ((((cfg0.win 3).blk t).view.emb j) 2) = j := by
      funext a; apply Fin.ext
      match a with
      | ⟨0, _⟩ => show 0 = (j 0).val; omega
      | ⟨1, _⟩ => show win0_3.index t (1 : Fin 3) * 8 + 1 * (j 1).val = (j 1).val; omega
      | ⟨2, _⟩ => show win0_3.index t (2 : Fin 3) * 128 + 1 * (j 2).val = (j 2).val; omega
    unfold outArr
    rw [h0]
    exact (congrArg (blockAt m c t) h1).symm
  generalize blockAt m c t = B at key ⊢
  generalize outArr m c = G at key ⊢
  funext j
  exact key j

/-- An index of the array is in point `t`'s block iff each coordinate is in the block's range on its axis. -/
theorem mem_blk (t : Fin cfg0.N) (i : S8x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0).slice (win0_3.rect t)).set ↔ _
  rw [View.set_slice_whole, Rect.mem_set_unit]
  exact Iff.rfl

/-- The eight blocks tile the array: index `i` is in the block of the point its leading coordinate names. -/
theorem cover (i : S8x8x128.Idx) : ∃ t : Fin cfg0.N, (cfg0.win 3).flush t = true ∧ i ∈ ((cfg0.win 3).blk t).view.set := by
  refine ⟨pt (i 0), flush0_3 _, ?_⟩
  rw [mem_blk]
  obtain ⟨-, -, -, -, -, -, -, -, -, e0, e1, e2⟩ := idx_facts (pt (i 0))
  have hi1 : (i 1).val < 8 := (i 1).isLt
  have hi2 : (i 2).val < 128 := (i 2).isLt
  have hp : (pt (i 0)).val = (i 0).val := rfl
  intro a
  match a with
  | ⟨0, _⟩ => show win0_3.index (pt (i 0)) (0 : Fin 3) * 1 ≤ (i 0).val ∧ (i 0).val < win0_3.index (pt (i 0)) (0 : Fin 3) * 1 + 1; omega
  | ⟨1, _⟩ => show win0_3.index (pt (i 0)) (1 : Fin 3) * 8 ≤ (i 1).val ∧ (i 1).val < win0_3.index (pt (i 0)) (1 : Fin 3) * 8 + 8; omega
  | ⟨2, _⟩ => show win0_3.index (pt (i 0)) (2 : Fin 3) * 128 ≤ (i 2).val ∧ (i 2).val < win0_3.index (pt (i 0)) (2 : Fin 3) * 128 + 128; omega

/-- The output array after the run is `outArr`. -/
theorem final (c : Dev nD) : (dats m 0 c).arrAt 3 cfg0.N = outArr m c :=
  (dats m 0 c).arrAt_eq_of_cover 3 (outArr m c) (fun t _ => flushed_eq m c t) (cover)

end Cert.KernelIdeal.OutArray
end
-- ==== Proof.TilePartials.lean ====
/-
  What one grid point computes from its tile, at the extended reals.

  The body loads a tile of 32 batch rows of each array and reduces it to two numbers:
  * from the two embedding tiles, the sum over the tile's 32 · 64 rows of √(Σ_k (o − d)²) — three lane/sublane sums one inside
    the other (over the 768 entries, over the 64 rows of a batch row, over the 32 batch rows), each a plain finite sum at the
    extended reals;
  * from the encoded tile, Σ_j Σ_e (Σ_n x[j,n,e] · rsqrt(Σ_e' x[j,n,e']²))²: the row's sum of squares, its reciprocal square
    root broadcast back along the row, the scaled rows summed over the 64 rows of a batch row, squared, and summed over the
    384 entries and the 32 batch rows.
  Each reduction over one axis is read at an index as the sum over that axis's coordinate; a shape cast that only adds or drops
  unit axes keeps the row-major position. The two numbers are `LossSums.autoTile` and `LossSums.viTile` of the tiles.
-/
import proofs.«159195_j23476291240772_2_alg».proof.Proof.Gen.KernelIdeal.Skeleton
import proofs.«159195_j23476291240772_2_alg».proof.Proof.LossSums
import Idealize.ShloMosaic.Lib.Pipeline.Value
import Idealize.ShloMosaic.Lib.ValueIdx
import Idealize.ShloMosaic.PureOps.Ideal.Laws

noncomputable section
namespace Cert.KernelIdeal.TilePartials
open Idealize.ShloMosaic Idealize.ShloMosaic.ValueIdx Cert.KernelIdeal Cert.KernelIdeal.Gen Cert.LossSums

/-- The first partial, splat over the 8 × 128 block: the sum over the tile's rows of the distance between the two embeddings. -/
theorem autoPartial (x0 x1 : Vec Ideal S32x64x768 .f32) :
    k0_pay5 (F := Ideal) x0 x1 = broadcast S8x128 (autoTile x0 x1) := by
  unfold k0_pay5
  refine congrArg (broadcast S8x128) ?_
  unfold extractAt
  refine (shapeCast_apply _ _ _ (ix1 (0 : Fin 1)) ?_).trans ?_
  · rw [Shape.rowMajor_val_one, Shape.rowMajor_val_two]; rfl
  refine (Ideal.multiReduction_add_single _ _ _ _ _ _).trans ?_
  unfold autoTile
  refine Finset.sum_congr rfl fun j _ => ?_
  refine (shapeCast_apply _ _ _ (ix1 (j : Fin 32)) ?_).trans ?_
  · rw [Shape.rowMajor_val_one, Shape.rowMajor_val_two]
    show j.val = 0 * 32 + j.val
    omega
  refine (Ideal.multiReduction_add_single _ _ _ _ _ _).trans ?_
  refine Finset.sum_congr rfl fun n _ => ?_
  refine congrArg Ideal.sqrt ?_
  refine (Ideal.multiReduction_add_single _ _ _ _ _ _).trans ?_
  refine Finset.sum_congr rfl fun k _ => ?_
  have e : reduces_S32x64x768_S32x64.lift (reduces_S32x64_S32.lift (ix1 (j : Fin 32)) n) k = ix3 (j : Fin 32) (n : Fin 64) (k : Fin 768) := by
    funext a; apply Fin.ext
    match a with
    | ⟨0, _⟩ => rfl
    | ⟨1, _⟩ => rfl
    | ⟨2, _⟩ => rfl
  exact congrArg (fun i => (x0 i - x1 i) * (x0 i - x1 i)) e

/-- The sum over a batch row's 64 rows of entry `e` of each row scaled by the reciprocal square root of its sum of squares. -/
theorem unitRowSum (x : Vec Ideal S32x64x384 .f32) (j : Fin 32) (e : Fin 384) :
    multiReduction (F := Ideal) (φ := .f32) .add [1] S32x384
        (mulf (F := Ideal) (φ := .f32) x (broadcastTo S32x64x384 (rsqrt (F := Ideal) (φ := .f32) (shapeCast S32x64x1
          (multiReduction (F := Ideal) (φ := .f32) .add [2] S32x64 (mulf (F := Ideal) (φ := .f32) x x) 0x00000000#32 reduces_S32x64x384_S32x64 (.inl rfl) rfl)
          shapeCasts_S32x64_S32x64x1)) broadcasts_S32x64x1_S32x64x384))
        0x00000000#32 reduces_S32x64x384_S32x384 (.inl rfl) rfl (ix2 j e)
      = ∑ n : Fin 64, x (ix3 j n e) * Ideal.rsqrt (∑ e' : Fin 384, x (ix3 j n e') * x (ix3 j n e')) := by
  refine (Ideal.multiReduction_add_single _ _ _ _ _ _).trans ?_
  refine Finset.sum_congr rfl fun n _ => ?_
  have e1 : reduces_S32x64x384_S32x384.lift (ix2 j e) n = ix3 j (n : Fin 64) e := by
    funext a; apply Fin.ext
    match a with
    | ⟨0, _⟩ => rfl
    | ⟨1, _⟩ => rfl
    | ⟨2, _⟩ => rfl
  refine congrArg₂ (· * ·) (congrArg x e1) ?_
  refine (broadcastTo_apply _ _ _ (ix3 j (n : Fin 64) (0 : Fin 1)) ?_).trans ?_
  · intro a
    match a with
    | ⟨0, _⟩ => rfl
    | ⟨1, _⟩ => rfl
    | ⟨2, _⟩ => rfl
  refine congrArg Ideal.rsqrt ?_
  refine (shapeCast_apply _ _ _ (ix2 j (n : Fin 64)) ?_).trans ?_
  · refine (Shape.rowMajor_val_two _).trans (Eq.trans ?_ (Shape.rowMajor_val_three _).symm)
    show j.val * 64 + n.val = (j.val * 64 + n.val) * 1 + 0
    omega
  refine (Ideal.multiReduction_add_single _ _ _ _ _ _).trans ?_
  refine Finset.sum_congr rfl fun e' _ => ?_
  have e2 : reduces_S32x64x384_S32x64.lift (ix2 j (n : Fin 64)) e' = ix3 j (n : Fin 64) (e' : Fin 384) := by
    funext a; apply Fin.ext
    match a with
    | ⟨0, _⟩ => rfl
    | ⟨1, _⟩ => rfl
    | ⟨2, _⟩ => rfl
  exact congrArg (fun i => x i * x i) e2

/-- The second partial: per batch row of the tile, the squared length of the sum of its `rsqrt`-scaled rows; summed over the tile. -/
theorem viPartial (x : Vec Ideal S32x64x384 .f32) : k0_pay2 (F := Ideal) x = viTile x := by
  unfold k0_pay2
  unfold extractAt
  refine (shapeCast_apply _ _ _ (ix1 (0 : Fin 1)) ?_).trans ?_
  · rw [Shape.rowMajor_val_one, Shape.rowMajor_val_two]; rfl
  refine (Ideal.multiReduction_add_single _ _ _ _ _ _).trans ?_
  unfold viTile
  refine Finset.sum_congr rfl fun j _ => ?_
  refine (shapeCast_apply _ _ _ (ix1 (j : Fin 32)) ?_).trans ?_
  · rw [Shape.rowMajor_val_one, Shape.rowMajor_val_two]
    show j.val = 0 * 32 + j.val
    omega
  refine (Ideal.multiReduction_add_single _ _ _ _ _ _).trans ?_
  refine Finset.sum_congr rfl fun e _ => ?_
  have e0 : reduces_S32x384_S32.lift (ix1 (j : Fin 32)) e = ix2 (j : Fin 32) (e : Fin 384) := by
    funext a; apply Fin.ext
    match a with
    | ⟨0, _⟩ => rfl
    | ⟨1, _⟩ => rfl
  have hs := unitRowSum x (j : Fin 32) (e : Fin 384)
  exact (congrArg (fun i => _ * _) e0).trans (congrArg₂ (· * ·) hs hs)

end Cert.KernelIdeal.TilePartials
end
-- ==== Proof.OutBlock.lean ====
/-
  The 1 × 8 × 128 block the body stores, at the two positions the host reads.

  The body splats its first partial `A` where (row, column) = (0, 0) and zero elsewhere, its second partial `S` where
  (row, column) = (1, 0) and zero elsewhere, and stores the sum of the two: the masks are the conjunctions of two coordinate
  tests, decided at the two positions. At (0, 0) the block holds `A + 0 = A`, at (1, 0) it holds `0 + S = S`; adding the real
  zero changes no extended real.
-/
import proofs.«159195_j23476291240772_2_alg».proof.Proof.Gen.KernelIdeal.Frame
import proofs.«159195_j23476291240772_2_alg».proof.Proof.TilePartials
import Idealize.ShloMosaic.Lib.Pipeline.Value
import Idealize.ShloMosaic.Lib.ValueIdx
import Idealize.ShloMosaic.PureOps.Ideal.Laws

noncomputable section
namespace Cert.KernelIdeal.OutBlock
open Idealize.ShloMosaic Idealize.ShloMosaic.ValueIdx Cert.KernelIdeal Cert.KernelIdeal.Gen Cert.LossSums Cert.KernelIdeal.TilePartials

/-- The first mask is on at (0, 0) and off at (1, 0); the second the other way round. -/
theorem maskAuto_00 : k0_pay3 (ix2 (0 : Fin 8) (0 : Fin 128)) = 1#1 := by
  unfold k0_pay3
  simp only [andi, cmpi, broadcast, iota_single_apply]
  decide

theorem maskVi_00 : k0_pay4 (ix2 (0 : Fin 8) (0 : Fin 128)) = 0#1 := by
  unfold k0_pay4
  simp only [andi, cmpi, broadcast, iota_single_apply]
  decide

theorem maskAuto_10 : k0_pay3 (ix2 (1 : Fin 8) (0 : Fin 128)) = 0#1 := by
  unfold k0_pay3
  simp only [andi, cmpi, broadcast, iota_single_apply]
  decide

theorem maskVi_10 : k0_pay4 (ix2 (1 : Fin 8) (0 : Fin 128)) = 1#1 := by
  unfold k0_pay4
  simp only [andi, cmpi, broadcast, iota_single_apply]
  decide

theorem hz3 : (![0, 0, 0] : Fin 3 → Nat) = fun _ => 0 := funext fun a => by fin_cases a <;> rfl

/-- The body's one store covers the block, and its loads are the whole tiles: the block is the stored value of the tiles. -/
theorem outBlock_eq {F : FTy → Type} [FloatOps F] (x0 x1 : Vec F S32x64x768 .f32) (x2 : Vec F S32x64x384 .f32) :
    out0_3 x0 x1 x2 = k0_pay1 (k0_pay2 x2) k0_pay3 k0_pay4 (Scalar.ofBits .f32 0x00000000#32) (k0_pay5 x0 x1) := by
  unfold out0_3
  rw [View.canon_unit_zero hz3]
  simp only [View.ld_unit_zero (S := S32x64x768) hz3, View.ld_unit_zero (S := S32x64x384) hz3]

/-- The stored value at (0, r, c): the first splat where the first mask is on, plus the second where the second is. -/
theorem block_at (v24 : Ideal .f32) (m1 m2 : IVec S8x128 1) (z : Ideal .f32) (v37 : FVec Ideal S8x128 .f32) (r : Fin 8) (c : Fin 128) :
    k0_pay1 (F := Ideal) v24 m1 m2 z v37 (ix3 (0 : Fin 1) r c)
      = Scalar.select (m1 (ix2 r c)) (v37 (ix2 r c)) z + Scalar.select (m2 (ix2 r c)) v24 (Ideal.ofBits .f32 0x00000000#32) := by
  unfold k0_pay1
  refine (shapeCast_apply _ _ _ (ix2 r c) ?_).trans ?_
  · refine (Shape.rowMajor_val_two _).trans (Eq.trans ?_ (Shape.rowMajor_val_three _).symm)
    show r.val * 128 + c.val = (0 * 8 + r.val) * 128 + c.val
    omega
  rfl

/-- At (0, 0, 0) the block holds the tile's sum of distances. -/
theorem block_auto (x0 x1 : Vec Ideal S32x64x768 .f32) (x2 : Vec Ideal S32x64x384 .f32) :
    out0_3 (F := Ideal) x0 x1 x2 (ix3 (0 : Fin 1) (0 : Fin 8) (0 : Fin 128)) = autoTile x0 x1 := by
  rw [outBlock_eq, block_at, maskAuto_00, maskVi_00, select_one, select_zero, autoPartial, broadcast_apply,
    Ideal.ofBits_zero_f32, add_zero]

/-- At (0, 1, 0) the block holds the tile's sum of squared unit-row sums. -/
theorem block_vi (x0 x1 : Vec Ideal S32x64x768 .f32) (x2 : Vec Ideal S32x64x384 .f32) :
    out0_3 (F := Ideal) x0 x1 x2 (ix3 (0 : Fin 1) (1 : Fin 8) (0 : Fin 128)) = viTile x2 := by
  rw [outBlock_eq, block_at, maskAuto_10, maskVi_10, select_zero, select_one, viPartial]
  show Ideal.ofBits .f32 0x00000000#32 + viTile x2 = viTile x2
  rw [Ideal.ofBits_zero_f32, zero_add]

end Cert.KernelIdeal.OutBlock
end
-- ==== Proof.KernelSums.lean ====
/-
  The kernel program's three results, as the shared tail of the two sums of `LossSums`.

  * The block point `q` loads from each array is tile `q` of it: the window's block index is (q, 0, 0) and the block is
    32 × 64 × (768 or 384), so element (j, n, k) of the block is element (32 q + j, n, k) of the array.
  * So the output array holds at (q, 0, 0) the tile's sum of distances and at (q, 1, 0) its sum of squared unit-row sums
    (`OutBlock`), and the host's two sums over the leading axis of columns (·, 0, 0) and (·, 1, 0) — a slice, a reshape
    that keeps the row-major position, a sum from the literal zero — are the sums over the eight tiles, which are the sums
    over all 256 batch rows (`LossSums.autoSum_tiles`, `viSum_tiles`; the second where every row has a positive sum of
    squares).
  * The lines after the region read the output array as the region left it, and the rest is the shared scalar tail.
-/
import proofs.«159195_j23476291240772_2_alg».proof.Proof.OutArray
import proofs.«159195_j23476291240772_2_alg».proof.Proof.OutBlock
import proofs.«159195_j23476291240772_2_alg».proof.Proof.LossSums
import proofs.«159195_j23476291240772_2_alg».proof.Proof.LossTail
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section
namespace Cert.KernelIdeal.KernelSums
open Idealize.ShloMosaic Idealize.ShloMosaic.TcCoe Idealize.ShloMosaic.ValueIdx Idealize.SL.Sem Idealize.ShloMosaic.StableHlo
open Cert.KernelIdeal Cert.KernelIdeal.Gen Cert.KernelIdeal.OutArray Cert.KernelIdeal.OutBlock Cert.LossSums Cert.LossTail

variable (m : (ℓ : Loc nD τ sig) → Buf (Elt Ideal) ℓ)

/-! ## The blocks are the tiles -/

theorem tile0 (c : Dev nD) (q : Fin 8) : iblk m c 0 (pt q) = embTile q (V m c main_arg0) := by
  obtain ⟨e0, e1, e2, -⟩ := idx_facts (pt q)
  have hp : (pt q).val = q.val := rfl
  funext y
  show V m c (Pipeline.arrRef spec0 0) (((cfg0.win 0).blk (pt q)).view.emb y) = V m c main_arg0 (ix3 (tileRow q (y 0)) (y 1) (y 2))
  refine congrArg (V m c main_arg0) ?_
  funext a; apply Fin.ext
  match a with
  | ⟨0, _⟩ => show win0_0.index (pt q) (0 : Fin 3) * 32 + 1 * (y 0).val = 32 * q.val + (y 0).val; omega
  | ⟨1, _⟩ => show win0_0.index (pt q) (1 : Fin 3) * 64 + 1 * (y 1).val = (y 1).val; omega
  | ⟨2, _⟩ => show win0_0.index (pt q) (2 : Fin 3) * 768 + 1 * (y 2).val = (y 2).val; omega

theorem tile1 (c : Dev nD) (q : Fin 8) : iblk m c 1 (pt q) = embTile q (V m c main_arg1) := by
  obtain ⟨-, -, -, e0, e1, e2, -⟩ := idx_facts (pt q)
  have hp : (pt q).val = q.val := rfl
  funext y
  show V m c (Pipeline.arrRef spec0 1) (((cfg0.win 1).blk (pt q)).view.emb y) = V m c main_arg1 (ix3 (tileRow q (y 0)) (y 1) (y 2))
  refine congrArg (V m c main_arg1) ?_
  funext a; apply Fin.ext
  match a with
  | ⟨0, _⟩ => show win0_1.index (pt q) (0 : Fin 3) * 32 + 1 * (y 0).val = 32 * q.val + (y 0).val; omega
  | ⟨1, _⟩ => show win0_1.index (pt q) (1 : Fin 3) * 64 + 1 * (y 1).val = (y 1).val; omega
  | ⟨2, _⟩ => show win0_1.index (pt q) (2 : Fin 3) * 768 + 1 * (y 2).val = (y 2).val; omega

theorem tile2 (c : Dev nD) (q : Fin 8) : iblk m c 2 (pt q) = encTile q (V m c main_arg2) := by
  obtain ⟨-, -, -, -, -, -, e0, e1, e2, -⟩ := idx_facts (pt q)
  have hp : (pt q).val = q.val := rfl
  funext y
  show V m c (Pipeline.arrRef spec0 2) (((cfg0.win 2).blk (pt q)).view.emb y) = V m c main_arg2 (ix3 (tileRow q (y 0)) (y 1) (y 2))
  refine congrArg (V m c main_arg2) ?_
  funext a; apply Fin.ext
  match a with
  | ⟨0, _⟩ => show win0_2.index (pt q) (0 : Fin 3) * 32 + 1 * (y 0).val = 32 * q.val + (y 0).val; omega
  | ⟨1, _⟩ => show win0_2.index (pt q) (1 : Fin 3) * 64 + 1 * (y 1).val = (y 1).val; omega
  | ⟨2, _⟩ => show win0_2.index (pt q) (2 : Fin 3) * 384 + 1 * (y 2).val = (y 2).val; omega

/-! ## The output array at the two columns the host reads -/

theorem outArr_auto (c : Dev nD) (q : Fin 8) :
    outArr m c (ix3 q (0 : Fin 8) (0 : Fin 128)) = autoTile (embTile q (V m c main_arg0)) (embTile q (V m c main_arg1)) := by
  unfold outArr blockAt
  show out0_3 (iblk m c 0 (pt q)) (iblk m c 1 (pt q)) (iblk m c 2 (pt q)) (ix3 (0 : Fin 1) (0 : Fin 8) (0 : Fin 128)) = _
  rw [tile0 m c q, tile1 m c q, tile2 m c q]
  exact block_auto _ _ _

theorem outArr_vi (c : Dev nD) (q : Fin 8) :
    outArr m c (ix3 q (1 : Fin 8) (0 : Fin 128)) = viTile (encTile q (V m c main_arg2)) := by
  unfold outArr blockAt
  show out0_3 (iblk m c 0 (pt q)) (iblk m c 1 (pt q)) (iblk m c 2 (pt q)) (ix3 (0 : Fin 1) (1 : Fin 8) (0 : Fin 128)) = _
  rw [tile0 m c q, tile1 m c q, tile2 m c q]
  exact block_vi _ _ _

/-! ## The host's two sums over the leading axis -/

/-- A sum over a rank-one index set is the sum over its one coordinate. -/
theorem sum_idx1 {M : Type*} [AddCommMonoid M] {n : Nat} (f : (⟨1, ![n]⟩ : Shape).Idx → M) :
    ∑ j, f j = ∑ q : Fin n, f (ix1 q) :=
  Fintype.sum_equiv ⟨fun j => j 0, fun q => ix1 q, fun j => (eq_ix1 j).symm, fun _ => rfl⟩ _ _ (fun j => congrArg f (eq_ix1 j))

/-- The host's sum over the leading axis of column (·, 0, 0) of an 8 × 8 × 128 array. -/
def colSum0 (out : FVec Ideal S8x8x128 .f32) : FVec Ideal S_ .f32 :=
  Host.reduceAdd (F := Ideal) (shapeCast S8 (extractStridedSlice S8x1x1 ![0, 0, 0] out slices_S8x8x128_S8x1x1_0_0_0) shapeCasts_S8x1x1_S8)
    (constant (F := Ideal) S_ .f32 0x00000000#32) reducesTo_S8_S_d0 h_S_

/-- The same of column (·, 1, 0). -/
def colSum1 (out : FVec Ideal S8x8x128 .f32) : FVec Ideal S_ .f32 :=
  Host.reduceAdd (F := Ideal) (shapeCast S8 (extractStridedSlice S8x1x1 ![0, 1, 0] out slices_S8x8x128_S8x1x1_0_1_0) shapeCasts_S8x1x1_S8)
    (constant (F := Ideal) S_ .f32 0x00000000#32) reducesTo_S8_S_d0 h_S_

theorem colSum0_apply (out : FVec Ideal S8x8x128 .f32) (i : S_.Idx) :
    colSum0 out i = ∑ q : Fin 8, out (ix3 q (0 : Fin 8) (0 : Fin 128)) := by
  unfold colSum0
  simp only [Host.reduceAdd, Ideal.hostReduceAdd_def]
  rw [Ideal.hostReduceAdd_total reducesTo_S8_S_d0 (fun b => b.elim0), constant_apply, Ideal.ofBits_zero_f32, zero_add, sum_idx1]
  refine Finset.sum_congr rfl fun q _ => ?_
  refine (shapeCast_apply _ _ _ (ix3 (q : Fin 8) (0 : Fin 1) (0 : Fin 1)) ?_).trans ?_
  · refine (Shape.rowMajor_val_three _).trans (Eq.trans ?_ (Shape.rowMajor_val_one _).symm)
    show (q.val * 1 + 0) * 1 + 0 = q.val
    omega
  refine extractStridedSlice_apply _ _ _ _ (ix3 (q : Fin 8) (0 : Fin 8) (0 : Fin 128)) ?_
  intro a
  match a with
  | ⟨0, _⟩ => show q.val = 0 + q.val; omega
  | ⟨1, _⟩ => rfl
  | ⟨2, _⟩ => rfl

theorem colSum1_apply (out : FVec Ideal S8x8x128 .f32) (i : S_.Idx) :
    colSum1 out i = ∑ q : Fin 8, out (ix3 q (1 : Fin 8) (0 : Fin 128)) := by
  unfold colSum1
  simp only [Host.reduceAdd, Ideal.hostReduceAdd_def]
  rw [Ideal.hostReduceAdd_total reducesTo_S8_S_d0 (fun b => b.elim0), constant_apply, Ideal.ofBits_zero_f32, zero_add, sum_idx1]
  refine Finset.sum_congr rfl fun q _ => ?_
  refine (shapeCast_apply _ _ _ (ix3 (q : Fin 8) (0 : Fin 1) (0 : Fin 1)) ?_).trans ?_
  · refine (Shape.rowMajor_val_three _).trans (Eq.trans ?_ (Shape.rowMajor_val_one _).symm)
    show (q.val * 1 + 0) * 1 + 0 = q.val
    omega
  refine extractStridedSlice_apply _ _ _ _ (ix3 (q : Fin 8) (1 : Fin 8) (0 : Fin 128)) ?_
  intro a
  match a with
  | ⟨0, _⟩ => show q.val = 0 + q.val; omega
  | ⟨1, _⟩ => rfl
  | ⟨2, _⟩ => rfl

/-- The sum of the eight tiles' first partials is the sum of distances over the whole arrays. -/
theorem autoSum_ker (c : Dev nD) :
    colSum0 (outArr m c) = fun _ => autoSum (m ((c.tc : Thread nD τ).loc main_arg0)) (m ((c.tc : Thread nD τ).loc main_arg1)) := by
  funext i
  rw [colSum0_apply, autoSum_tiles]
  exact Finset.sum_congr rfl fun q _ => outArr_auto m c q

/-- Where every row of the third array has a positive sum of squares, the sum of the eight tiles' second partials is the
    sum of squared unit-row sums over the whole array. -/
theorem viSum_ker (c : Dev nD) (hpos : ∀ b n, 0 < sqNorm (m ((c.tc : Thread nD τ).loc main_arg2)) b n) :
    colSum1 (outArr m c) = fun _ => viSum (m ((c.tc : Thread nD τ).loc main_arg2)) := by
  funext i
  rw [colSum1_apply, viSum_tiles _ hpos]
  exact Finset.sum_congr rfl fun q _ => outArr_vi m c q

end Cert.KernelIdeal.KernelSums
end
-- ==== Proof.KernelRun.lean ====
/-
  The kernel program's run, with its three results named.

  After the region the output array is `OutArray.outArr` (the frame's post names it, `OutArray.final`); the seventeen host
  lines after the region read it and nothing else of the region's, so their results are the shared tail of its two column
  sums, which are the two sums of `LossSums` of the ARGUMENT arrays (`KernelSums`). The argument arrays are windows the
  body only reads, so they end as they began.
-/
import proofs.«159195_j23476291240772_2_alg».proof.Proof.KernelSums

set_option maxRecDepth 16384

noncomputable section
namespace Cert.KernelIdeal.KernelRun
open Idealize.ShloMosaic Idealize.ShloMosaic.TcCoe Idealize.ShloMosaic.ValueIdx Idealize.SL.Sem Idealize.ShloMosaic.StableHlo
open Cert.KernelIdeal Cert.KernelIdeal.Gen Cert.KernelIdeal.OutArray Cert.KernelIdeal.KernelSums Cert.LossSums Cert.LossTail

variable (m : (ℓ : Loc nD τ sig) → Buf (Elt Ideal) ℓ) (ρ : Dev nD → PrngReg)

/-- The output array as the lines after the region find it. -/
theorem out_read (c : Dev nD) :
    Pipeline.withArrays (cfgs 0).spec c (V0 m c) (fun w => (dats m 0 c).arrAt w (cfgs 0).N) (Proc.devRef .tc main_v0) = outArr m c :=
  (Pipeline.withArrays_arr spec0 launch0.win.arr_inj c _ _ 3).trans (final m c)

theorem tail_v7 (c : Dev nD) :
    Pipeline.afterTail₀ cfgs (dats m) 0 (V0 m) [hostOps1] c main_v7 = autoNorm (colSum0 (outArr m c)) := by
  unfold Pipeline.afterTail₀
  show StableHlo.after hostOps1 _ (Proc.devRef .tc main_v7) = _
  after_results
  rw [out_read]
  rfl

theorem tail_v10 (c : Dev nD) :
    Pipeline.afterTail₀ cfgs (dats m) 0 (V0 m) [hostOps1] c main_v10 = viNorm (colSum1 (outArr m c)) := by
  unfold Pipeline.afterTail₀
  show StableHlo.after hostOps1 _ (Proc.devRef .tc main_v10) = _
  after_results
  rw [out_read]
  rfl

theorem tail_v11 (c : Dev nD) :
    Pipeline.afterTail₀ cfgs (dats m) 0 (V0 m) [hostOps1] c main_v11 = loss (colSum0 (outArr m c)) (colSum1 (outArr m c)) := by
  unfold Pipeline.afterTail₀
  show StableHlo.after hostOps1 _ (Proc.devRef .tc main_v11) = _
  after_results
  rw [out_read]
  rfl

/-- Every weakly fair execution of the kernel program terminates with its three results at the shared tail of the two
    sums of its arguments, and the arguments unchanged — where every row of the third argument has a positive sum of squares. -/
theorem run (hpos : ∀ (c : Dev nD) b n, 0 < sqNorm (m ((c.tc : Thread nD τ).loc main_arg2)) b n) :
    θ_run defs (onTc (τ := τ) (main (F := Ideal))) ⟨m, fun _ => 0, ρ⟩ (fun r => ∀ c : Dev nD,
      r.2.mem ((c.tc : Thread nD τ).loc main_v11)
          = loss (fun _ => autoSum (m ((c.tc : Thread nD τ).loc main_arg0)) (m ((c.tc : Thread nD τ).loc main_arg1)))
              (fun _ => viSum (m ((c.tc : Thread nD τ).loc main_arg2)))
      ∧ r.2.mem ((c.tc : Thread nD τ).loc main_v7)
          = autoNorm (fun _ => autoSum (m ((c.tc : Thread nD τ).loc main_arg0)) (m ((c.tc : Thread nD τ).loc main_arg1)))
      ∧ r.2.mem ((c.tc : Thread nD τ).loc main_v10) = viNorm (fun _ => viSum (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v11 (by decide)).trans ((tail_v11 m c).trans (by rw [autoSum_ker m c, viSum_ker m c (hpos c)])),
      ((h c).2 main_v7 (by decide)).trans ((tail_v7 m c).trans (by rw [autoSum_ker m c])),
      ((h c).2 main_v10 (by decide)).trans ((tail_v10 m c).trans (by rw [viSum_ker m c (hpos c)])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelRun
end
-- ==== Proof.lean ====
/-
  The certificate of a two-term embedding loss: a kernel gridded over eight tiles of 32 batch rows against its whole-array
  reference, equal on the extended reals.

  THE TWO PROGRAMS. From o, d : [256, 64, 768] and x : [256, 64, 384] both compute
      A = Σ_b Σ_n √( Σ_k (o[b,n,k] − d[b,n,k])² )                    the sum over all rows of the distance of the two embeddings,
      S = Σ_b Σ_e ( Σ_n u[b,n,e] )²,  u[b,n,·] = x[b,n,·] normalised   per batch, the squared length of the sum of the unit rows,
  and return  A/16384 − (0.5·(S − 16384))/532480,  A/16384,  (0.5·(S − 16384))/532480.
  The reference normalises by DIVIDING a row by the square root of its sum of squares s; the kernel by MULTIPLYING it with the
  reciprocal square root of s. The kernel computes, per grid point, the partial sums of A and S over its tile, writes them at
  positions (0, 0) and (1, 0) of an 8 × 128 block of zeros, and the host adds the eight partials of each.

  WHY THEY AGREE. A sum over the 256 batch rows is the sum over the 8 tiles of the sums over their 32 rows: only commutativity
  and associativity of +, valid on all extended reals; a host sum started from the literal zero, and a partial added to the
  zero of the masked block, add nothing. For 0 < s, x · rsqrt s = x / √s for EVERY extended real x (both are x · (√s)⁻¹ for a
  real s, both are 0 for s = ⊤). At s = 0 they differ — 0 · rsqrt 0 = 0 · ⊤ = 0 against 0 / 0 = ⊥ — so the precondition asks,
  besides finiteness, that every row of x have a positive sum of squares: the domain on which the reference's own division is
  defined. That conjunct is the only part of the precondition the proof uses. The last scalar operations are the same in both
  programs, literal for literal, and are carried as one function of (A, S), never opened.

  THE MODULES. `UnitRow` (the law), `LossSums` (A, S, their tile partials, the split into tiles), `LossTail` (the shared
  scalar tail), `Domain` (the precondition's conjunct as row positivity), `RefSums` / `RefLoss` (the reference's results),
  `TilePartials` (what one grid point computes), `OutBlock` (the block it stores), `OutArray` (the output array after the
  run), `KernelSums` / `KernelRun` (the kernel program's results). The frames of the two kernel programs and the reference's
  run are the generated ones.
-/
import proofs.«159195_j23476291240772_2_alg».proof.Defs
import proofs.«159195_j23476291240772_2_alg».proof.Proof.Gen.Kernel
import proofs.«159195_j23476291240772_2_alg».proof.Proof.Gen.Kernel.Skeleton
import proofs.«159195_j23476291240772_2_alg».proof.Proof.Gen.Kernel.Launch
import proofs.«159195_j23476291240772_2_alg».proof.Proof.Gen.Kernel.Points
import proofs.«159195_j23476291240772_2_alg».proof.Proof.Gen.Kernel.Frame
import proofs.«159195_j23476291240772_2_alg».proof.Proof.Gen.KernelIdeal
import proofs.«159195_j23476291240772_2_alg».proof.Proof.Gen.KernelIdeal.Skeleton
import proofs.«159195_j23476291240772_2_alg».proof.Proof.Gen.KernelIdeal.Launch
import proofs.«159195_j23476291240772_2_alg».proof.Proof.Gen.KernelIdeal.Points
import proofs.«159195_j23476291240772_2_alg».proof.Proof.Gen.KernelIdeal.Frame
import proofs.«159195_j23476291240772_2_alg».proof.Proof.Gen.ReferenceIdeal
import proofs.«159195_j23476291240772_2_alg».proof.Proof.Gen.Pre_finite_inputs
import proofs.«159195_j23476291240772_2_alg».proof.Proof.Gen.ReferenceIdeal.Run
import proofs.«159195_j23476291240772_2_alg».proof.Proof.Gen.ReferenceIdeal.Read
import proofs.«159195_j23476291240772_2_alg».proof.Proof.Domain
import proofs.«159195_j23476291240772_2_alg».proof.Proof.RefLoss
import proofs.«159195_j23476291240772_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference is host operations only: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote nothing: the idealized kernel is the kernel's own text read at the extended reals. -/
theorem preserves : Cert.preserves_Kernel_KernelIdeal := trivial

/-- Both programs end at the shared tail of `autoSum` and `viSum` of the arguments: the kernel program by `KernelRun.run`,
    under the row positivity the precondition gives; the reference by its generated run read through `RefLoss`. -/
theorem algebraic : Cert.algebraic_KernelIdeal_ReferenceIdeal := by
  intro m ρ m' ρ' hpre hagree
  have hpos : ∀ (c : Dev Cert.KernelIdeal.nD) b n,
      0 < Cert.LossSums.sqNorm (m ((c.tc : Thread Cert.KernelIdeal.nD Cert.KernelIdeal.τ).loc Cert.KernelIdeal.main_arg2)) b n :=
    fun c b n => Cert.Pre_finite_inputs.Domain.rows_nonzero _ _ _ (hpre c) b n
  refine ⟨_, _, _, Cert.KernelIdeal.KernelRun.run m ρ hpos, ?_⟩
  refine (θ_run Cert.ReferenceIdeal.defs _ _).mono
    (fun _ h c => ⟨?_, ?_, ?_, (h c).2.2.2.1, (h c).2.2.2.2.1, (h c).2.2.2.2.2⟩)
    (Cert.ReferenceIdeal.Value.run (F := Ideal) m' ρ')
  · rw [(h c).1, Cert.ReferenceIdeal.Read.val_main_v15_eq, Cert.ReferenceIdeal.RefLoss.loss_ref,
      (hagree c).1, (hagree c).2.1, (hagree c).2.2]
  · rw [(h c).2.1, Cert.ReferenceIdeal.Read.val_main_v13_eq, Cert.ReferenceIdeal.RefLoss.autoNorm_ref,
      (hagree c).1, (hagree c).2.1]
  · rw [(h c).2.2.1, Cert.ReferenceIdeal.Read.val_main_v14_eq, Cert.ReferenceIdeal.RefLoss.viNorm_ref, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
